-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 33
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S100000x1, .f32⟩
  | .hbm, ⟨29, _⟩ => ⟨S128x128, .f32⟩
  | .hbm, ⟨30, _⟩ => ⟨S128x128, .f32⟩
  | .hbm, ⟨31, _⟩ => ⟨S1x128, .f32⟩
  | .hbm, ⟨32, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S10000x1_S10000x128 : S10000x1.Broadcasts S10000x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v13) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  The layer both programs compute, stated once over the extended reals.

  For a node r and an output feature c, from the summed neighbour features S (one row per node), the
  neighbour counts n (one entry per node), the node features X, the two weight matrices Wl, Wr (one row per
  output feature) and the bias b:

      out(r, c) = max( Σ_k (S(r,k) / max(n(r), 1)) · Wl(c,k)  +  b(c)  +  Σ_k X(r,k) · Wr(c,k) ,  0 ).

  The quotient is the extended reals' division of the float operations, the two constants are the
  float words of 1.0 and 0.0, kept as words: both programs carry the same words.
-/
import Idealize.ShloMosaic.PureOps.Ideal
import Idealize.ShloMosaic.Lib.ValueIdx

noncomputable section

namespace Cert.SageLayer

open Idealize.ShloMosaic Idealize.ShloMosaic.ValueIdx

/-- One row per node, 128 features. -/
abbrev NodeFeat : Shape := ⟨2, ![100000, 128]⟩
/-- One entry per node. -/
abbrev PerNode : Shape := ⟨1, ![100000]⟩
/-- A weight matrix: one row per output feature. -/
abbrev Weight : Shape := ⟨2, ![128, 128]⟩
/-- One entry per output feature. -/
abbrev PerFeat : Shape := ⟨1, ![128]⟩

/-- The float word of 1.0, read on the extended reals. -/
abbrev one : EReal := Ideal.ofBits .f32 0x3F800000#32
/-- The float word of 0.0, read on the extended reals. -/
abbrev zero : EReal := Ideal.ofBits .f32 0x00000000#32

/-- The layer at node `r`, output feature `c`. -/
def entry (S : NodeFeat.Idx → EReal) (n : PerNode.Idx → EReal) (X : NodeFeat.Idx → EReal)
    (Wl : Weight.Idx → EReal) (b : PerFeat.Idx → EReal) (Wr : Weight.Idx → EReal)
    (r : Fin 100000) (c : Fin 128) : EReal :=
  max ((∑ k : Fin 128, Ideal.div (S (ix2 r k)) (max (n (ix1 r)) one) * Wl (ix2 c k)) + b (ix1 c)
        + ∑ k : Fin 128, X (ix2 r k) * Wr (ix2 c k)) zero

/-- The layer as a whole array: entry (r, c) at the index with coordinates r and c. -/
def layer (S : NodeFeat.Idx → EReal) (n : PerNode.Idx → EReal) (X : NodeFeat.Idx → EReal)
    (Wl : Weight.Idx → EReal) (b : PerFeat.Idx → EReal) (Wr : Weight.Idx → EReal) : NodeFeat.Idx → EReal :=
  fun i => entry S n X Wl b Wr ⟨(i 0).val, idx2_lt0 i⟩ ⟨(i 1).val, idx2_lt1 i⟩

/-- At an index given by its coordinates the layer is the entry. -/
theorem layer_ix2 (S : NodeFeat.Idx → EReal) (n : PerNode.Idx → EReal) (X : NodeFeat.Idx → EReal)
    (Wl : Weight.Idx → EReal) (b : PerFeat.Idx → EReal) (Wr : Weight.Idx → EReal) (r : Fin 100000) (c : Fin 128) :
    layer S n X Wl b Wr (ix2 r c) = entry S n X Wl b Wr r c := rfl

end Cert.SageLayer

end
-- ==== Proof.Reference.lean ====
/-
  The reference computes the layer: its last stage, read entry by entry, is `SageLayer.layer` of the
  summed neighbour features and the neighbour counts (two earlier stages of the reference itself, kept
  closed: both programs compute them by the same operations) and of the four float arguments.
-/
import proofs.«112033_j78804059947264_2_alg».proof.Proof.Gen.ReferenceIdeal.Read
import proofs.«112033_j78804059947264_2_alg».proof.Proof.Layer

noncomputable section

namespace Cert.SageLayer.Ref

open Cert.ReferenceIdeal Cert.ReferenceIdeal.Read Idealize.ShloMosaic Idealize.ShloMosaic.ValueIdx

/-- The row of an index, as a number below the node count. -/
abbrev row (i : S100000x128.Idx) : Fin 100000 := ⟨(i 0).val, idx2_lt0 i⟩
/-- The column of an index, as a number below the feature count. -/
abbrev col (i : S100000x128.Idx) : Fin 128 := ⟨(i 1).val, idx2_lt1 i⟩

/-- The divisor of the mean: the count of the entry's row, floored at one, whatever the column. -/
theorem floored_count_apply (x1 : (⟨S2x1600000, .i32⟩ : BufTy).Contents (Elt Ideal)) (r : Fin 100000) (k : Fin 128) :
    val_main_v21 (F := Ideal) x1 (ix2 r k) = max (val_main_v17 (F := Ideal) x1 (ix1 r)) one := by
  rw [val_main_v21_apply, val_main_v20_apply, val_main_v19_apply, val_main_v18_apply, val_main_cst_3_apply]
  have e : idx_main_v20 (idx_main_v21 (ix2 r k)) = ix1 r := funext fun a => Fin.ext (by match a with | ⟨0, _⟩ => rfl)
  rw [e]
  rfl

/-- The reference's result is the layer of its own neighbour sums and counts and of the float arguments:
    the quotient by the floored count, the two products against the transposed weights as sums over the
    128 input features, the bias of the column, and the maximum with zero, entry by entry. -/
theorem reference_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v31 (F := Ideal) x0 x1 x2 x3 x4
      = layer (val_main_v13 (F := Ideal) x0 x1) (val_main_v17 (F := Ideal) x1) x0 x2 x3 x4 := by
  funext i
  rw [val_main_v31_apply, val_main_v30_apply, val_main_v27_apply, val_main_v24_apply, val_main_v29_apply,
    val_main_v26_apply, val_main_v25_apply, val_main_call0_v0_apply, val_main_call0_cst_apply]
  have hL : ∀ k : Fin 128, val_main_v22 (F := Ideal) x0 x1 (lidx_main_v24 i k) * val_main_v23 (F := Ideal) x2 (ridx_main_v24 i k)
      = Ideal.div (val_main_v13 (F := Ideal) x0 x1 (ix2 (row i) k)) (max (val_main_v17 (F := Ideal) x1 (ix1 (row i))) one) * x2 (ix2 (col i) k) := fun k => by
    have e1 : lidx_main_v24 i k = ix2 (row i) k := funext fun a => Fin.ext (by match a with | ⟨0, _⟩ => rfl | ⟨1, _⟩ => rfl)
    have e2 : idx_main_v23 (ridx_main_v24 i k) = ix2 (col i) k := funext fun a => Fin.ext (by match a with | ⟨0, _⟩ => rfl | ⟨1, _⟩ => rfl)
    rw [e1, val_main_v22_apply, floored_count_apply, val_main_v23_apply, e2]
    rfl
  have hR : ∀ k : Fin 128, x0 (lidx_main_v29 i k) * val_main_v28 (F := Ideal) x4 (ridx_main_v29 i k)
      = x0 (ix2 (row i) k) * x4 (ix2 (col i) k) := fun k => by
    have e1 : lidx_main_v29 i k = ix2 (row i) k := funext fun a => Fin.ext (by match a with | ⟨0, _⟩ => rfl | ⟨1, _⟩ => rfl)
    have e2 : idx_main_v28 (ridx_main_v29 i k) = ix2 (col i) k := funext fun a => Fin.ext (by match a with | ⟨0, _⟩ => rfl | ⟨1, _⟩ => rfl)
    rw [e1, val_main_v28_apply, e2]
  have hb : idx_main_v25 (idx_main_v26 i) = ix1 (col i) := funext fun a => Fin.ext (by match a with | ⟨0, _⟩ => rfl)
  rw [Finset.sum_congr rfl (fun k _ => hL k), Finset.sum_congr rfl (fun k _ => hR k), hb]
  rfl

end Cert.SageLayer.Ref

end
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.Staged.lean ====
/-
  What the kernel's launch finds in the six arrays its windows stage, as functions of the arguments.

  Before the launch the program sums, for every node, the features of its in-neighbours and counts them (the same
  operations, on the same arguments, as the reference's: the two stages are named once, on the reference's side,
  and never opened), casts the counts to a one-column matrix, transposes both weight matrices and casts the bias
  to a one-row matrix.  Each of these is then read at an entry.
-/
import proofs.«112033_j78804059947264_2_alg».proof.Proof.Gen.KernelIdeal.Frame
import proofs.«112033_j78804059947264_2_alg».proof.Proof.Gen.ReferenceIdeal.Read
import proofs.«112033_j78804059947264_2_alg».proof.Proof.LibColumn
import Idealize.ShloMosaic.Lib.StableHlo.Run
import Idealize.ShloMosaic.Lib.ValueLayout

noncomputable section

namespace Cert.SageLayer.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The summed neighbour features the launch finds are the reference's stage of the same name, of the node
    features and the edge list. -/
theorem sums_eq (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [Gen.V, Gen.hostOps0]
  after_results
  rfl

/-- The neighbour counts the launch finds are the reference's stage of the same name, of the edge list, as a
    one-column matrix. -/
theorem counts_eq (c : Dev nD) :
    (V m c main_v18 : S100000x1.Idx → EReal)
      = shapeCast S100000x1 (Cert.ReferenceIdeal.Read.val_main_v17 (F := Ideal) (m ((c : Thread nD τ).loc main_arg1)))
          shapeCasts_S100000_S100000x1 := by
  dsimp only [Gen.V, Gen.hostOps0]
  after_results
  rfl

/-- The count column at row `r` is the count of node `r`. -/
theorem counts_apply (c : Dev nD) (r : Fin 100000) :
    (V m c main_v18 : S100000x1.Idx → EReal) (ix2 r (0 : Fin 1))
      = Cert.ReferenceIdeal.Read.val_main_v17 (F := Ideal) (m ((c : Thread nD τ).loc main_arg1)) (ix1 r) := by
  rw [counts_eq]
  exact Cert.Splat.Column.shapeCast_a_a1_apply _ _ r 0

/-- The first weight matrix the launch finds is the argument's transpose. -/
theorem wl_eq (c : Dev nD) :
    (V m c main_v19 : S128x128.Idx → EReal)
      = transpose S128x128 [1, 0] (m ((c : Thread nD τ).loc main_arg2)) transposes_S128x128_S128x128_1_0 := by
  dsimp only [Gen.V, Gen.hostOps0]
  after_results

/-- Its entry (k, q) is the argument's entry (q, k). -/
theorem wl_apply (c : Dev nD) (k q : Fin 128) :
    (V m c main_v19 : S128x128.Idx → EReal) (ix2 k q)
      = (m ((c : Thread nD τ).loc main_arg2) : S128x128.Idx → EReal) (ix2 q k) := by
  rw [wl_eq]
  exact transpose_ix2_apply _ _ k q

/-- The second weight matrix the launch finds is the argument's transpose. -/
theorem wr_eq (c : Dev nD) :
    (V m c main_v20 : S128x128.Idx → EReal)
      = transpose S128x128 [1, 0] (m ((c : Thread nD τ).loc main_arg4)) transposes_S128x128_S128x128_1_0 := by
  dsimp only [Gen.V, Gen.hostOps0]
  after_results

/-- Its entry (k, q) is the argument's entry (q, k). -/
theorem wr_apply (c : Dev nD) (k q : Fin 128) :
    (V m c main_v20 : S128x128.Idx → EReal) (ix2 k q)
      = (m ((c : Thread nD τ).loc main_arg4) : S128x128.Idx → EReal) (ix2 q k) := by
  rw [wr_eq]
  exact transpose_ix2_apply _ _ k q

/-- The bias the launch finds is the argument as a one-row matrix. -/
theorem bias_eq (c : Dev nD) :
    (V m c main_v21 : S1x128.Idx → EReal)
      = shapeCast S1x128 (m ((c : Thread nD τ).loc main_arg3)) shapeCasts_S128_S1x128 := by
  dsimp only [Gen.V, Gen.hostOps0]
  after_results
  rfl

/-- Its entry (0, q) is the argument's entry q. -/
theorem bias_apply (c : Dev nD) (q : Fin 128) :
    (V m c main_v21 : S1x128.Idx → EReal) (ix2 (0 : Fin 1) q)
      = (m ((c : Thread nD τ).loc main_arg3) : S128.Idx → EReal) (ix1 q) := by
  rw [bias_eq]
  exact shapeCast_a_1a_apply _ _ 0 q

end Cert.SageLayer.Staged

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.Body.lean ====
/-
  What the kernel's body stores, read at an entry of its block.

  From a block of summed neighbour features S, the block's one-column counts n, a block of node features X,
  the two transposed weight matrices Wl, Wr and the one-row bias b, the body stores at row p, column q

      max( Σ_k (S(p,k) / max(n(p,0), 1)) · Wl(k,q)  +  b(0,q)  +  Σ_k X(p,k) · Wr(k,q) ,  0 ):

  the quotient is taken entry by entry against the count column spread along the row, each matrix product runs
  into a zero accumulator and is the plain row-by-column sum, the bias row is spread down the rows.
-/
import proofs.«112033_j78804059947264_2_alg».proof.Proof.Gen.KernelIdeal.Skeleton
import proofs.«112033_j78804059947264_2_alg».proof.Proof.Layer
import proofs.«112033_j78804059947264_2_alg».proof.Proof.LibMatmul
import proofs.«112033_j78804059947264_2_alg».proof.Proof.LibColumn
import Idealize.ShloMosaic.Lib.ValueLayout
import Idealize.ShloMosaic.Lib.Pipeline.Value

noncomputable section

namespace Cert.SageLayer.Body

open Cert.KernelIdeal Cert.KernelIdeal.Gen Idealize.ShloMosaic Idealize.ShloMosaic.ValueIdx

/-- The body's matrix products contract the left operand's columns against the right operand's rows. -/
theorem dot_plain : dot_S10000x128_S128x128_S10000x128_1_0_0_1_n_n = DotDims.plain 10000 128 128 := rfl

/-- The stored value at row `p`, column `q` of the block. -/
theorem stored_apply (S : Vec Ideal S10000x128 .f32) (n : Vec Ideal S10000x1 .f32) (X : Vec Ideal S10000x128 .f32)
    (Wl : Vec Ideal S128x128 .f32) (Wr : Vec Ideal S128x128 .f32) (b : Vec Ideal S1x128 .f32) (p : Fin 10000) (q : Fin 128) :
    k0_pay1 S n X Wl Wr b (ix2 p q)
      = max ((∑ k : Fin 128, Ideal.div (S (ix2 p k)) (max (n (ix2 p (0 : Fin 1))) one) * Wl (ix2 k q)) + b (ix2 (0 : Fin 1) q)
          + ∑ k : Fin 128, X (ix2 p k) * Wr (ix2 k q)) zero := by
  unfold k0_pay1
  simp only [shapeCast_self]
  rw [maximumf_apply, addf_apply, addf_apply, broadcast_apply]
  simp only [matmul]
  rw [dot_plain, LibMatmul.matmul_zero_apply, LibMatmul.matmul_zero_apply, broadcastTo_1b_ab_apply]
  have hp : LibMatmul.rowOf (ix2 p q : (⟨2, ![10000, 128]⟩ : Shape).Idx) = p := rfl
  have hq : LibMatmul.colOf (ix2 p q : (⟨2, ![10000, 128]⟩ : Shape).Idx) = q := rfl
  rw [hp, hq]
  simp only [divf_apply, Cert.Splat.Column.broadcastTo_a1_ab_apply, maximumf_apply, broadcast_apply]
  rfl

/-- So when the six blocks are read off six arrays — the node blocks at the rows `node p` of the node arrays, the
    weight blocks as the transposes of two weight matrices, the bias row off a bias vector — the stored value at
    (p, q) is the layer's entry of those arrays at node `node p`, feature `q`. -/
theorem stored_entry (node : Fin 10000 → Fin 100000)
    (S : Vec Ideal S10000x128 .f32) (n : Vec Ideal S10000x1 .f32) (X : Vec Ideal S10000x128 .f32)
    (Wl : Vec Ideal S128x128 .f32) (Wr : Vec Ideal S128x128 .f32) (b : Vec Ideal S1x128 .f32)
    (S' : NodeFeat.Idx → EReal) (n' : PerNode.Idx → EReal) (X' : NodeFeat.Idx → EReal)
    (Wl' : Weight.Idx → EReal) (b' : PerFeat.Idx → EReal) (Wr' : Weight.Idx → EReal)
    (hS : ∀ (p : Fin 10000) (k : Fin 128), S (ix2 p k) = S' (ix2 (node p) k))
    (hn : ∀ p : Fin 10000, n (ix2 p (0 : Fin 1)) = n' (ix1 (node p)))
    (hX : ∀ (p : Fin 10000) (k : Fin 128), X (ix2 p k) = X' (ix2 (node p) k))
    (hWl : ∀ k q : Fin 128, Wl (ix2 k q) = Wl' (ix2 q k))
    (hb : ∀ q : Fin 128, b (ix2 (0 : Fin 1) q) = b' (ix1 q))
    (hWr : ∀ k q : Fin 128, Wr (ix2 k q) = Wr' (ix2 q k))
    (p : Fin 10000) (q : Fin 128) :
    k0_pay1 S n X Wl Wr b (ix2 p q) = entry S' n' X' Wl' b' Wr' (node p) q := by
  rw [stored_apply]
  unfold entry
  simp only [hS, hn, hX, hWl, hb, hWr]

end Cert.SageLayer.Body

end
-- ==== Proof.Blocks.lean ====
/-
  From blocks to the whole array.

  The launch runs the body at ten points; point t works on rows 10000·t … 10000·t + 9999 of the node arrays (the
  summed neighbour features, the count column, the node features, the result) and on the whole of the two weight
  matrices and of the bias row.  So what point t writes back is block t of ONE array: the layer of the arguments.
  The ten blocks cover the result array (row r lies in block r / 10000), hence the array ends holding the layer.
-/
import proofs.«112033_j78804059947264_2_alg».proof.Proof.Gen.KernelIdeal.Value
import proofs.«112033_j78804059947264_2_alg».proof.Proof.Layer
import proofs.«112033_j78804059947264_2_alg».proof.Proof.Staged
import proofs.«112033_j78804059947264_2_alg».proof.Proof.Body

noncomputable section

namespace Cert.SageLayer.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer of the arguments as launched: of the neighbour sums and counts computed from the node features and
    the edge list, the node features, the two weight matrices and the bias. -/
abbrev result (c : Dev nD) : S100000x128.Idx → EReal :=
  layer (Cert.ReferenceIdeal.Read.val_main_v13 (F := Ideal) (m ((c : Thread nD τ).loc main_arg0)) (m ((c : Thread nD τ).loc main_arg1)))
    (Cert.ReferenceIdeal.Read.val_main_v17 (F := Ideal) (m ((c : Thread nD τ).loc main_arg1)))
    (m ((c : Thread nD τ).loc main_arg0)) (m ((c : Thread nD τ).loc main_arg2)) (m ((c : Thread nD τ).loc main_arg3))
    (m ((c : Thread nD τ).loc main_arg4))

/-- Where each window's block sits at point `t`: the four node arrays move down one block of rows per point, the
    weights and the bias stay (decided over the ten points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The node whose row is row `p` of point `t`'s block. -/
def nodeOf (t : Fin cfg0.N) (p : Fin 10000) : Fin 100000 :=
  ⟨10000 * t.val + p.val, by have h : t.val < 10 := Nat.lt_of_lt_of_eq t.isLt N_0; have := p.isLt; omega⟩

/-! ### An array read through a window's block

Each lemma is stated for ANY contents of the window's array: the arrays the launch finds are long
compositions of the operations before it, and nothing here needs to look inside them. -/

/-- Window 0 (the summed neighbour features): row `p` of point `t`'s block is the array's row of node `nodeOf t p`. -/
theorem read_sums (A : (⟨S100000x128, .f32⟩ : BufTy).Contents (Elt Ideal)) (t : Fin cfg0.N) (p : Fin 10000) (k : Fin 128) :
    (((cfg0.win 0).blk t).view.read (Elt Ideal) A : Vec Ideal S10000x128 .f32) (ix2 p k) = A (ix2 (nodeOf t p) k) := by
  obtain ⟨e0, e1, -⟩ := block_index t
  rw [View.read_apply, cast_eq]
  refine congrArg A (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 128 + 1 * k.val = k.val; rw [e1]; omega

/-- Window 1 (the count column): row `p` of point `t`'s block is the column's entry of node `nodeOf t p`. -/
theorem read_counts (A : (⟨S100000x1, .f32⟩ : BufTy).Contents (Elt Ideal)) (t : Fin cfg0.N) (p : Fin 10000) :
    (((cfg0.win 1).blk t).view.read (Elt Ideal) A : Vec Ideal S10000x1 .f32) (ix2 p (0 : Fin 1)) = A (ix2 (nodeOf t p) (0 : Fin 1)) := by
  obtain ⟨-, -, e0, e1, -⟩ := block_index t
  rw [View.read_apply, cast_eq]
  refine congrArg A (funext fun a => Fin.ext ?_)
  match a with
  | ⟨0, _⟩ => show win0_1.index t (0 : Fin 2) * 10000 + 1 * p.val = 10000 * t.val + p.val; rw [e0]; omega
  | ⟨1, _⟩ => show win0_1.index t (1 : Fin 2) * 1 + 1 * 0 = 0; rw [e1]

/-- Window 2 (the node features): row `p` of point `t`'s block is the array's row of node `nodeOf t p`. -/
theorem read_feats (A : (⟨S100000x128, .f32⟩ : BufTy).Contents (Elt Ideal)) (t : Fin cfg0.N) (p : Fin 10000) (k : Fin 128) :
    (((cfg0.win 2).blk t).view.read (Elt Ideal) A : Vec Ideal S10000x128 .f32) (ix2 p k) = A (ix2 (nodeOf t p) k) := by
  obtain ⟨-, -, -, -, e0, e1, -⟩ := block_index t
  rw [View.read_apply, cast_eq]
  refine congrArg A (funext fun a => Fin.ext ?_)
  match a with
  | ⟨0, _⟩ => show win0_2.index t (0 : Fin 2) * 10000 + 1 * p.val = 10000 * t.val + p.val; rw [e0]; omega
  | ⟨1, _⟩ => show win0_2.index t (1 : Fin 2) * 128 + 1 * k.val = k.val; rw [e1]; omega

/-- Window 3 (the first weight matrix, transposed): every point's block is the whole matrix. -/
theorem read_wl (A : (⟨S128x128, .f32⟩ : BufTy).Contents (Elt Ideal)) (t : Fin cfg0.N) (k q : Fin 128) :
    (((cfg0.win 3).blk t).view.read (Elt Ideal) A : Vec Ideal S128x128 .f32) (ix2 k q) = A (ix2 k q) := by
  obtain ⟨-, -, -, -, -, -, e0, e1, -⟩ := block_index t
  rw [View.read_apply, cast_eq]
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Window 4 (the bias row): every point's block is the whole row. -/
theorem read_bias (A : (⟨S1x128, .f32⟩ : BufTy).Contents (Elt Ideal)) (t : Fin cfg0.N) (q : Fin 128) :
    (((cfg0.win 4).blk t).view.read (Elt Ideal) A : Vec Ideal S1x128 .f32) (ix2 (0 : Fin 1) q) = A (ix2 (0 : Fin 1) q) := by
  obtain ⟨-, -, -, -, -, -, -, -, e0, e1, -⟩ := block_index t
  rw [View.read_apply, cast_eq]
  refine congrArg A (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- Window 5 (the second weight matrix, transposed): every point's block is the whole matrix. -/
theorem read_wr (A : (⟨S128x128, .f32⟩ : BufTy).Contents (Elt Ideal)) (t : Fin cfg0.N) (k q : Fin 128) :
    (((cfg0.win 5).blk t).view.read (Elt Ideal) A : Vec Ideal S128x128 .f32) (ix2 k q) = A (ix2 k q) := by
  obtain ⟨-, -, -, -, -, -, -, -, -, -, e0, e1, -⟩ := block_index t
  rw [View.read_apply, cast_eq]
  refine congrArg A (funext fun a => Fin.ext ?_)
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- Window 6 (the result): row `p` of point `t`'s block is the array's row of node `nodeOf t p`. -/
theorem read_result (A : (⟨S100000x128, .f32⟩ : BufTy).Contents (Elt Ideal)) (t : Fin cfg0.N) (p : Fin 10000) (q : Fin 128) :
    (((cfg0.win 6).blk t).view.read (Elt Ideal) A : Vec Ideal S10000x128 .f32) (ix2 p q) = A (ix2 (nodeOf t p) q) := by
  obtain ⟨-, -, -, -, -, -, -, -, -, -, -, -, e0, e1⟩ := block_index t
  rw [View.read_apply, cast_eq]
  refine congrArg A (funext fun a => Fin.ext ?_)
  match a with
  | ⟨0, _⟩ => show win0_6.index t (0 : Fin 2) * 10000 + 1 * p.val = 10000 * t.val + p.val; rw [e0]; omega
  | ⟨1, _⟩ => show win0_6.index t (1 : Fin 2) * 128 + 1 * q.val = q.val; rw [e1]; omega

/-! ### The six blocks of a point, read off the arguments -/

/-- Row `p` of point `t`'s block of summed neighbour features. -/
theorem sums_block (c : Dev nD) (t : Fin cfg0.N) (p : Fin 10000) (k : Fin 128) :
    (iblk m c 0 t : Vec Ideal S10000x128 .f32) (ix2 p k)
      = Cert.ReferenceIdeal.Read.val_main_v13 (F := Ideal) (m ((c : Thread nD τ).loc main_arg0)) (m ((c : Thread nD τ).loc main_arg1))
          (ix2 (nodeOf t p) k) := by
  unfold iblk
  rw [read_sums]
  exact congrFun (Staged.sums_eq m c) _

/-- Row `p` of point `t`'s block of the count column. -/
theorem counts_block (c : Dev nD) (t : Fin cfg0.N) (p : Fin 10000) :
    (iblk m c 1 t : Vec Ideal S10000x1 .f32) (ix2 p (0 : Fin 1))
      = Cert.ReferenceIdeal.Read.val_main_v17 (F := Ideal) (m ((c : Thread nD τ).loc main_arg1)) (ix1 (nodeOf t p)) := by
  unfold iblk
  rw [read_counts]
  exact Staged.counts_apply m c _

/-- Row `p` of point `t`'s block of node features. -/
theorem feats_block (c : Dev nD) (t : Fin cfg0.N) (p : Fin 10000) (k : Fin 128) :
    (iblk m c 2 t : Vec Ideal S10000x128 .f32) (ix2 p k)
      = (m ((c : Thread nD τ).loc main_arg0) : S100000x128.Idx → EReal) (ix2 (nodeOf t p) k) := by
  unfold iblk
  rw [read_feats]
  exact congrFun (V_main_arg0 m c) _

/-- Point `t`'s first weight block is the first weight matrix, transposed. -/
theorem wl_block (c : Dev nD) (t : Fin cfg0.N) (k q : Fin 128) :
    (iblk m c 3 t : Vec Ideal S128x128 .f32) (ix2 k q)
      = (m ((c : Thread nD τ).loc main_arg2) : S128x128.Idx → EReal) (ix2 q k) := by
  unfold iblk
  rw [read_wl]
  exact Staged.wl_apply m c k q

/-- Point `t`'s bias block is the bias, as a row. -/
theorem bias_block (c : Dev nD) (t : Fin cfg0.N) (q : Fin 128) :
    (iblk m c 4 t : Vec Ideal S1x128 .f32) (ix2 (0 : Fin 1) q)
      = (m ((c : Thread nD τ).loc main_arg3) : S128.Idx → EReal) (ix1 q) := by
  unfold iblk
  rw [read_bias]
  exact Staged.bias_apply m c q

/-- Point `t`'s second weight block is the second weight matrix, transposed. -/
theorem wr_block (c : Dev nD) (t : Fin cfg0.N) (k q : Fin 128) :
    (iblk m c 5 t : Vec Ideal S128x128 .f32) (ix2 k q)
      = (m ((c : Thread nD τ).loc main_arg4) : S128x128.Idx → EReal) (ix2 q k) := by
  unfold iblk
  rw [read_wr]
  exact Staged.wr_apply m c k q

/-! ### What a point writes back, the cover, the array -/

/-- WHAT POINT `t` WRITES BACK is block `t` of the layer of the arguments. -/
theorem flushed_eq (c : Dev nD) (t : Fin cfg0.N) :
    (dats m 0 c).flushed 6 t = ((cfg0.win 6).blk t).view.read (Elt Ideal) (result m c) := by
  rw [flushed6]
  unfold out0_6
  rw [View.canon_unit_zero zero_offsets]
  simp only [View.ld_unit_zero (S := S10000x128) zero_offsets, View.ld_unit_zero (S := S10000x1) zero_offsets,
    View.ld_unit_zero (S := S128x128) zero_offsets, View.ld_unit_zero (S := S1x128) zero_offsets]
  refine funext fun (j : S10000x128.Idx) => ?_
  obtain ⟨p, q, rfl⟩ : ∃ (p : Fin 10000) (q : Fin 128), j = ix2 p q := ⟨j 0, j 1, eq_ix2 j⟩
  rw [read_result]
  show k0_pay1 (F := Ideal) _ _ _ _ _ _ (ix2 p q) = layer _ _ _ _ _ _ (ix2 (nodeOf t p) q)
  rw [layer_ix2]
  exact Body.stored_entry (nodeOf t) _ _ _ _ _ _ _ _ _ _ _ _ (sums_block m c t) (counts_block m c t) (feats_block m c t)
    (wl_block m c t) (bias_block m c t) (wr_block m c t) p q

/-- An index of the result array lies in point `t`'s block iff each coordinate lies in the block's range. -/
theorem mem_block (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v22).slice (win0_6.rect t)).set ↔ _
  rw [View.set_slice_whole, Rect.mem_set_unit]
  exact Iff.rfl

/-- THE COVER: row r of the result array lies in the block of point r / 10000, which writes back. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, Nat.lt_of_lt_of_eq (by omega : (i 0).val / 10000 < 10) N_0.symm⟩, rfl⟩
  obtain ⟨-, -, -, -, -, -, -, -, -, -, -, -, e0, e1⟩ := block_index t
  refine ⟨t, flush0_6 t, ?_⟩
  rw [mem_block]
  intro a
  match a with
  | ⟨0, _⟩ =>
    show win0_6.index t (0 : Fin 2) * 10000 ≤ (i 0).val ∧ (i 0).val < win0_6.index t (0 : Fin 2) * 10000 + 10000
    rw [e0, ht]; omega
  | ⟨1, _⟩ =>
    show win0_6.index t (1 : Fin 2) * 128 ≤ (i 1).val ∧ (i 1).val < win0_6.index t (1 : Fin 2) * 128 + 128
    rw [e1]; omega

/-- THE ARRAY after the run is the layer of the arguments. -/
theorem final (c : Dev nD) : (dats m 0 c).arrAt 6 cfg0.N = result m c :=
  (dats m 0 c).arrAt_eq_of_cover 6 (result m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.SageLayer.Blocks

end
-- ==== Proof.lean ====
/-
  The certificate of one graph-convolution layer: for every node, the mean of its in-neighbours' features
  (their sum over the neighbour count floored at one) times a first weight matrix, plus a bias, plus the
  node's own features times a second weight matrix, then the maximum with zero.

  The kernel and the reference sum and count the neighbours by the same operations on the same arguments.
  The kernel then computes the rest block by block, ten blocks of 10000 nodes, on weight matrices transposed
  beforehand; the reference computes it on the whole arrays.  Over the extended reals both are one function,
  `SageLayer.layer`, of the arguments: the kernel's result array by its blocks (module Blocks), the reference's
  by reading its operations at an entry (module Reference).  No law of arithmetic beyond the definitions of the
  operations is used, so the finiteness of the inputs is never opened.
-/
import proofs.«112033_j78804059947264_2_alg».proof.Defs
import proofs.«112033_j78804059947264_2_alg».proof.Proof.Gen.Kernel
import proofs.«112033_j78804059947264_2_alg».proof.Proof.Gen.Kernel.Skeleton
import proofs.«112033_j78804059947264_2_alg».proof.Proof.Gen.Kernel.Launch
import proofs.«112033_j78804059947264_2_alg».proof.Proof.Gen.Kernel.Points
import proofs.«112033_j78804059947264_2_alg».proof.Proof.Gen.Kernel.Frame
import proofs.«112033_j78804059947264_2_alg».proof.Proof.Gen.KernelIdeal
import proofs.«112033_j78804059947264_2_alg».proof.Proof.Gen.KernelIdeal.Skeleton
import proofs.«112033_j78804059947264_2_alg».proof.Proof.Gen.KernelIdeal.Launch
import proofs.«112033_j78804059947264_2_alg».proof.Proof.Gen.KernelIdeal.Points
import proofs.«112033_j78804059947264_2_alg».proof.Proof.Gen.KernelIdeal.Frame
import proofs.«112033_j78804059947264_2_alg».proof.Proof.Gen.ReferenceIdeal
import proofs.«112033_j78804059947264_2_alg».proof.Proof.Gen.KernelIdeal.Value
import proofs.«112033_j78804059947264_2_alg».proof.Proof.Gen.ReferenceIdeal.Run
import proofs.«112033_j78804059947264_2_alg».proof.Proof.Gen.ReferenceIdeal.Read
import proofs.«112033_j78804059947264_2_alg».proof.Proof.Gen.Pre_finite_inputs
import proofs.«112033_j78804059947264_2_alg».proof.Proof.Reference
import proofs.«112033_j78804059947264_2_alg».proof.Proof.Blocks
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the layer of those arguments in their result. -/
theorem algebraic : Cert.algebraic_KernelIdeal_ReferenceIdeal := by
  intro m ρ m' ρ' _ hagree
  refine ⟨fun c => Cert.SageLayer.Blocks.result m c, Cert.SageLayer.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.SageLayer.Ref.reference_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
